-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000x64 .f32) (main_arg2 : FVec F S64x64 .f32) (main_arg3 : FVec F S64 .f32) (main_arg4 : IVec S1600000 32) (main_arg5 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000x64 : Shape := ⟨2, ![1600000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S1x64 : Shape := ⟨2, ![1, 64]⟩
abbrev S100000x1 : Shape := ⟨2, ![100000, 1]⟩
abbrev S2000x64 : Shape := ⟨2, ![2000, 64]⟩
abbrev S2000x1 : Shape := ⟨2, ![2000, 1]⟩

abbrev nBuf : Space → Nat
  | .hbm => 50
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S1600000x64, .f32⟩
  | .hbm, ⟨39, _⟩ => ⟨S_, .i32⟩
  | .hbm, ⟨40, _⟩ => ⟨S1600000, .i32⟩
  | .hbm, ⟨41, _⟩ => ⟨S_, .i32⟩
  | .hbm, ⟨42, _⟩ => ⟨S100000, .i32⟩
  | .hbm, ⟨43, _⟩ => ⟨S1600000x1, .i32⟩
  | .hbm, ⟨44, _⟩ => ⟨S100000, .i32⟩
  | .hbm, ⟨45, _⟩ => ⟨S100000, .f32⟩
  | .hbm, ⟨46, _⟩ => ⟨S64x64, .f32⟩
  | .hbm, ⟨47, _⟩ => ⟨S1x64, .f32⟩
  | .hbm, ⟨48, _⟩ => ⟨S100000x1, .f32⟩
  | .hbm, ⟨49, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S2000x1, .f32⟩
  | .local _ .vmem, ⟨5, _⟩ => ⟨S2000x1, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  transposes_S64x64_S64x64_1_0 : S64x64.Transposes [1, 0] S64x64
  shapeCasts_S64_S1x64 : S64.ShapeCasts S1x64
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v10) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S1x64 : Shape := ⟨2, ![1, 64]⟩
abbrev S100000x1 : Shape := ⟨2, ![100000, 1]⟩

abbrev nBuf : Space → Nat
  | .hbm => 61
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S64x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_call0_v0 : Ref sig .tc := ⟨.hbm, 46, rfl⟩
abbrev main_call0_v1 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«145681_j16862041604212_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibRowBlock.lean ====
/-
  Row blocks of a matrix, and what the operations of a dense layer do to them.

  `RowBlk r x X` says that the M×N matrix `x` is rows r, r+1, …, r+M-1 of the M'×N matrix `X`. Every operation that
  acts entry by entry takes row blocks to row blocks (`map₁`, `map₂`, `map₃`), and so do the operations of a dense
  layer whose other operand is shared by all rows: the product of a row block with a K×N matrix, accumulated from
  zero, is the same row block of the host's product of the whole matrix (every entry of either is the sum over k of
  row entries times the shared column); a bias row [1,N] spread over the block's rows is the row block of the bias
  spread over all rows; a column block [M,1] spread over N columns is the row block of the whole column spread.
  Over the extended reals where a sum is read; generic in the extents.
-/
import proofs.«145681_j16862041604212_2_alg».proof.Proof.LibMatmulPlain
import proofs.«145681_j16862041604212_2_alg».proof.Proof.LibDotGeneralPlain
import proofs.«145681_j16862041604212_2_alg».proof.Proof.LibHostBroadcast
import proofs.«145681_j16862041604212_2_alg».proof.Proof.LibColumns
import Idealize.ShloMosaic.Lib.ValueLayout

noncomputable section

open scoped BigOperators

namespace Cert.LibRowBlock

open Idealize.ShloMosaic Idealize.ShloMosaic.ValueIdx

variable {α β γ δ : Type} {M M' N K : ℕ}

/-- `x` is rows r … r+M-1 of `X`. -/
def RowBlk (r : ℕ) (x : (⟨2, ![M, N]⟩ : Shape).Idx → α) (X : (⟨2, ![M', N]⟩ : Shape).Idx → α) : Prop :=
  ∀ (p : Fin M) (q : Fin N) (h : r + p.val < M'), x (ix2 p q) = X (ix2 ⟨r + p.val, h⟩ q)

namespace RowBlk

variable {r : ℕ}

/-- The same entry everywhere. -/
theorem const (a : α) : RowBlk (M := M) (M' := M') (N := N) r (fun _ => a) (fun _ => a) := fun _ _ _ => rfl

/-- An operation applied entry by entry. -/
theorem map₁ (f : α → β) {x : (⟨2, ![M, N]⟩ : Shape).Idx → α} {X : (⟨2, ![M', N]⟩ : Shape).Idx → α} (hx : RowBlk r x X) :
    RowBlk r (fun i => f (x i)) (fun i => f (X i)) := fun p q h => congrArg f (hx p q h)

theorem map₂ (f : α → β → γ) {x : (⟨2, ![M, N]⟩ : Shape).Idx → α} {X : (⟨2, ![M', N]⟩ : Shape).Idx → α}
    {y : (⟨2, ![M, N]⟩ : Shape).Idx → β} {Y : (⟨2, ![M', N]⟩ : Shape).Idx → β} (hx : RowBlk r x X) (hy : RowBlk r y Y) :
    RowBlk r (fun i => f (x i) (y i)) (fun i => f (X i) (Y i)) := fun p q h => by
  show f (x (ix2 p q)) (y (ix2 p q)) = f (X _) (Y _)
  rw [hx p q h, hy p q h]

theorem map₃ (f : α → β → γ → δ) {x : (⟨2, ![M, N]⟩ : Shape).Idx → α} {X : (⟨2, ![M', N]⟩ : Shape).Idx → α}
    {y : (⟨2, ![M, N]⟩ : Shape).Idx → β} {Y : (⟨2, ![M', N]⟩ : Shape).Idx → β}
    {z : (⟨2, ![M, N]⟩ : Shape).Idx → γ} {Z : (⟨2, ![M', N]⟩ : Shape).Idx → γ}
    (hx : RowBlk r x X) (hy : RowBlk r y Y) (hz : RowBlk r z Z) :
    RowBlk r (fun i => f (x i) (y i) (z i)) (fun i => f (X i) (Y i) (Z i)) := fun p q h => by
  show f (x (ix2 p q)) (y (ix2 p q)) (z (ix2 p q)) = f (X _) (Y _) (Z _)
  rw [hx p q h, hy p q h, hz p q h]

/-- The product of a row block with a shared matrix, from the zero accumulator, is the row block of the host's
    product of the whole matrix. -/
theorem matmul_dot {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    {x : FVec Ideal ⟨2, ![M, K]⟩ φ₁} {X : FVec Ideal ⟨2, ![M', K]⟩ φ₁} (w : FVec Ideal ⟨2, ![K, N]⟩ φ₂) (hx : RowBlk r x X) :
    RowBlk r (FloatOps.matmul D prec x w (constant (F := Ideal) ⟨2, ![M, N]⟩ .f32 0x00000000#32))
      (FloatOps.dotGeneral D' prec' sched X w) := fun p q h => by
  rw [Cert.LibMatmulPlain.matmul_plain_zero_apply D hD, Cert.LibDotGeneralPlain.dotGeneral_plain_apply D' hD']
  exact Finset.sum_congr rfl fun k _ => by rw [hx p k h]

/-- A bias row spread over the rows of a block and over the rows of the whole matrix. -/
theorem rowBias (b : (⟨2, ![1, N]⟩ : Shape).Idx → α) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) :
    RowBlk r (broadcastTo ⟨2, ![M, N]⟩ b hb) (broadcastInDim ⟨2, ![M', N]⟩ dims hB b) := fun p q h => by
  rw [broadcastTo_1b_ab_apply, Cert.LibHostBroadcast.bcast_1b_ab_apply dims hd1 hB]

/-- A [1,N] row spread over the rows by a host broadcast, both as the block and as the whole. -/
theorem rowSpread (b : (⟨2, ![1, N]⟩ : Shape).Idx → α)
    (dims : Fin (⟨2, ![1, N]⟩ : Shape).rank → Fin (⟨2, ![M, N]⟩ : Shape).rank)
    (hd : dims ⟨1, Nat.lt_succ_self 1⟩ = ⟨1, Nat.lt_succ_self 1⟩)
    (hb : (⟨2, ![1, N]⟩ : Shape).BroadcastsInDim ⟨2, ![M, N]⟩ dims)
    (dims' : Fin (⟨2, ![1, N]⟩ : Shape).rank → Fin (⟨2, ![M', N]⟩ : Shape).rank)
    (hd' : dims' ⟨1, Nat.lt_succ_self 1⟩ = ⟨1, Nat.lt_succ_self 1⟩)
    (hB : (⟨2, ![1, N]⟩ : Shape).BroadcastsInDim ⟨2, ![M', N]⟩ dims') :
    RowBlk r (broadcastInDim ⟨2, ![M, N]⟩ dims hb b) (broadcastInDim ⟨2, ![M', N]⟩ dims' hB b) := fun p q h => by
  rw [Cert.LibHostBroadcast.bcast_1b_ab_apply dims hd hb, Cert.LibHostBroadcast.bcast_1b_ab_apply dims' hd' hB]

/-- A column block spread over N columns is the row block of the whole column spread over N columns. -/
theorem colSpread {x : (⟨2, ![M, 1]⟩ : Shape).Idx → α} {X : (⟨2, ![M', 1]⟩ : Shape).Idx → α} (hx : RowBlk r x X)
    (hb : (⟨2, ![M, 1]⟩ : Shape).Broadcasts ⟨2, ![M, N]⟩)
    (dims : Fin (⟨2, ![M', 1]⟩ : Shape).rank → Fin (⟨2, ![M', N]⟩ : Shape).rank)
    (hd0 : dims ⟨0, Nat.succ_pos 1⟩ = ⟨0, Nat.succ_pos 1⟩)
    (hB : (⟨2, ![M', 1]⟩ : Shape).BroadcastsInDim ⟨2, ![M', N]⟩ dims) :
    RowBlk r (broadcastTo ⟨2, ![M, N]⟩ x hb) (broadcastInDim ⟨2, ![M', N]⟩ dims hB X) := fun p q h => by
  rw [Cert.Columns.broadcastTo_a1_ab_apply, Cert.LibHostBroadcast.bcast_a1_ab_apply dims hd0 hB]
  exact hx p 0 h

/-- Reading a row block at an entry of the block. -/
theorem apply {x : (⟨2, ![M, N]⟩ : Shape).Idx → α} {X : (⟨2, ![M', N]⟩ : Shape).Idx → α} (hx : RowBlk r x X)
    (j : (⟨2, ![M, N]⟩ : Shape).Idx) (i : (⟨2, ![M', N]⟩ : Shape).Idx) (h0 : (i 0).val = r + (j 0).val) (h1 : (i 1).val = (j 1).val) :
    x j = X i := by
  obtain ⟨p, q, rfl⟩ : ∃ (p : Fin M) (q : Fin N), j = ix2 p q := ⟨j 0, j 1, eq_ix2 j⟩
  have h0' : (i 0).val = r + p.val := h0
  have h1' : (i 1).val = q.val := h1
  have hi0 : (i 0).val < M' := (i 0).isLt
  have hlt : r + p.val < M' := by omega
  have hi : i = ix2 ⟨r + p.val, hlt⟩ q := by
    rw [eq_ix2 i]
    congr 1
    · exact Fin.ext h0'
    · exact Fin.ext h1'
  rw [hi]
  exact hx p q _

/-- A matrix read through an index map that shifts the rows by r and keeps the columns is a row block. -/
theorem of_read (X : (⟨2, ![M', N]⟩ : Shape).Idx → α) (e : (⟨2, ![M, N]⟩ : Shape).Idx → (⟨2, ![M', N]⟩ : Shape).Idx)
    (h0 : ∀ j, (e j 0).val = r + (j 0).val) (h1 : ∀ j, (e j 1).val = (j 1).val) :
    RowBlk r (fun j => X (e j)) X := fun p q h => by
  refine congrArg X ?_
  rw [eq_ix2 (e (ix2 p q))]
  congr 1
  · exact Fin.ext (h0 _)
  · exact Fin.ext (h1 _)

end RowBlk

end Cert.LibRowBlock

end
-- ==== Proof.LibSoftplusForms.lean ====
/-
  jnp's softplus, log(1 + exp u) computed as max(u, 0) + log1p(exp(-|u - 0|)) with the case u - 0 ≠ u - 0 guarded, at
  one extended real, in the two spellings the programs use: the host's (an unordered "not equal" test, a negation)
  and the kernel's (the ordered test, a subtraction from zero). On the extended reals an entry never differs from
  itself, so both tests fail and both spellings are the unguarded branch; and 0 - a = -a. Hence one function.
-/
import Idealize.ShloMosaic.PureOps.Ideal.Laws

noncomputable section

namespace Cert.LibSoftplusForms

open Idealize.ShloMosaic

/-- The host's spelling at one entry. -/
def spHost (u : Ideal .f32) : Ideal .f32 :=
  Scalar.select
    (FloatOps.cmpf .une (FloatOps.subf u (FloatOps.ofBits .f32 0x00000000#32)) (FloatOps.subf u (FloatOps.ofBits .f32 0x00000000#32)))
    (FloatOps.addf u (FloatOps.ofBits .f32 0x00000000#32))
    (FloatOps.addf (FloatOps.maximumf u (FloatOps.ofBits .f32 0x00000000#32))
      (FloatOps.hostUnary .log1p (FloatOps.hostUnary .exp (FloatOps.hostNegf (FloatOps.hostAbsf
        (FloatOps.subf u (FloatOps.ofBits .f32 0x00000000#32)))))))

/-- The kernel's spelling at one entry. -/
def spKernel (u : Ideal .f32) : Ideal .f32 :=
  Scalar.select
    (FloatOps.cmpf .one (FloatOps.subf u (Scalar.ofBits .f32 0x00000000#32)) (FloatOps.subf u (Scalar.ofBits .f32 0x00000000#32)))
    (FloatOps.addf u (Scalar.ofBits .f32 0x00000000#32))
    (FloatOps.addf (FloatOps.maximumf u (Scalar.ofBits .f32 0x00000000#32))
      (FloatOps.log1p (FloatOps.exp (FloatOps.subf (Scalar.ofBits .f32 0x00000000#32)
        (FloatOps.absf (FloatOps.subf u (Scalar.ofBits .f32 0x00000000#32)))))))

/-- The two spellings are one function of the entry. -/
theorem spKernel_eq (u : Ideal .f32) : spKernel u = spHost u := by
  unfold spKernel spHost
  have e : ∀ a : EReal, (Ideal.ofBits .f32 0x00000000#32 : EReal) - a = -a := fun a => by
    rw [Ideal.ofBits_zero_f32, zero_sub]
  show Scalar.select _ _ (_ + Ideal.log1p (Ideal.exp (Ideal.ofBits .f32 0x00000000#32 - _)))
    = Scalar.select _ _ (_ + Ideal.log1p (Ideal.exp (- _)))
  rw [e]
  rfl

end Cert.LibSoftplusForms

end
-- ==== Proof.LibRowBlockOps.lean ====
/-
  Row blocks through the operations the dense stages are spelled with, one lemma per operation so that a stage is read
  from its outermost operation inwards: sums, differences and products entry by entry; the exponential (the kernel's and
  the host's are one function on the extended reals); a scalar constant spread over a block and over the whole matrix;
  a dense layer (a product with a shared matrix from the zero accumulator plus a shared bias row); and jnp's softplus in
  the kernel's and in the host's spelling, which are one function of an entry.
-/
import proofs.«145681_j16862041604212_2_alg».proof.Proof.LibRowBlock
import proofs.«145681_j16862041604212_2_alg».proof.Proof.LibSoftplusForms

noncomputable section

namespace Cert.LibRowBlock

open Idealize.ShloMosaic Idealize.ShloMosaic.ValueIdx Cert.LibSoftplusForms

variable {M M' N K : ℕ} {r : ℕ}

/-- jnp's softplus on an array, in the kernel's spelling. -/
def kSoftplus {S : Shape} (v : FVec Ideal S .f32) : FVec Ideal S .f32 :=
  select (cmpf .one (subf v (broadcast S (Scalar.ofBits .f32 0x00000000#32))) (subf v (broadcast S (Scalar.ofBits .f32 0x00000000#32))))
    (addf v (broadcast S (Scalar.ofBits .f32 0x00000000#32)))
    (addf (maximumf v (broadcast S (Scalar.ofBits .f32 0x00000000#32)))
      (log1p (exp (subf (broadcast S (Scalar.ofBits .f32 0x00000000#32))
        (absf (subf v (broadcast S (Scalar.ofBits .f32 0x00000000#32))))))))

/-- jnp's softplus on an array, in the host's spelling. -/
def hSoftplus {S : Shape} (dims : Fin (⟨0, ![]⟩ : Shape).rank → Fin S.rank) (h : (⟨0, ![]⟩ : Shape).BroadcastsInDim S dims)
    (X : FVec Ideal S .f32) : FVec Ideal S .f32 :=
  select (cmpf .une (subf X (broadcastInDim S dims h (constant ⟨0, ![]⟩ .f32 0x00000000#32)))
      (subf X (broadcastInDim S dims h (constant ⟨0, ![]⟩ .f32 0x00000000#32))))
    (addf X (broadcastInDim S dims h (constant ⟨0, ![]⟩ .f32 0x00000000#32)))
    (addf (maximumf X (broadcastInDim S dims h (constant ⟨0, ![]⟩ .f32 0x00000000#32)))
      (Host.log1p (Host.exp (Host.negf (Host.absf
        (subf X (broadcastInDim S dims h (constant ⟨0, ![]⟩ .f32 0x00000000#32))))))))

theorem kSoftplus_eq {S : Shape} (v : FVec Ideal S .f32) : kSoftplus v = fun i => spHost (v i) :=
  funext fun i => spKernel_eq (v i)

theorem hSoftplus_eq {S : Shape} (dims : Fin (⟨0, ![]⟩ : Shape).rank → Fin S.rank) (h : (⟨0, ![]⟩ : Shape).BroadcastsInDim S dims)
    (X : FVec Ideal S .f32) : hSoftplus dims h X = fun i => spHost (X i) := rfl

namespace RowBlk

theorem addf {φ : FTy} {x y : FVec Ideal ⟨2, ![M, N]⟩ φ} {X Y : FVec Ideal ⟨2, ![M', N]⟩ φ} (hx : RowBlk r x X) (hy : RowBlk r y Y) :
    RowBlk r (Idealize.ShloMosaic.addf x y) (Idealize.ShloMosaic.addf X Y) := RowBlk.map₂ FloatOps.addf hx hy

theorem subf {φ : FTy} {x y : FVec Ideal ⟨2, ![M, N]⟩ φ} {X Y : FVec Ideal ⟨2, ![M', N]⟩ φ} (hx : RowBlk r x X) (hy : RowBlk r y Y) :
    RowBlk r (Idealize.ShloMosaic.subf x y) (Idealize.ShloMosaic.subf X Y) := RowBlk.map₂ FloatOps.subf hx hy

theorem mulf {φ : FTy} {x y : FVec Ideal ⟨2, ![M, N]⟩ φ} {X Y : FVec Ideal ⟨2, ![M', N]⟩ φ} (hx : RowBlk r x X) (hy : RowBlk r y Y) :
    RowBlk r (Idealize.ShloMosaic.mulf x y) (Idealize.ShloMosaic.mulf X Y) := RowBlk.map₂ FloatOps.mulf hx hy

/-- The kernel's exponential of a block and the host's of the whole matrix. -/
theorem exp_hostExp {φ : FTy} {x : FVec Ideal ⟨2, ![M, N]⟩ φ} {X : FVec Ideal ⟨2, ![M', N]⟩ φ} (hx : RowBlk r x X) :
    RowBlk r (Idealize.ShloMosaic.exp x) (Host.exp X) := RowBlk.map₁ Ideal.exp hx

/-- A scalar constant spread over a block by the kernel and over the whole matrix by the host. -/
theorem splat {φ : FTy} (b : BitVec φ.bits) (dims : Fin (⟨0, ![]⟩ : Shape).rank → Fin (⟨2, ![M', N]⟩ : Shape).rank)
    (h : (⟨0, ![]⟩ : Shape).BroadcastsInDim ⟨2, ![M', N]⟩ dims) :
    RowBlk r (broadcast ⟨2, ![M, N]⟩ (Scalar.ofBits (F := Ideal) φ b))
      (broadcastInDim ⟨2, ![M', N]⟩ dims h (constant (F := Ideal) ⟨0, ![]⟩ φ b)) := RowBlk.const (Ideal.ofBits φ b)

/-- A dense layer: the product with a shared matrix from the zero accumulator, plus a shared bias row. -/
theorem dense {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂)
    (b : FVec Ideal ⟨2, ![1, N]⟩ .f32) (hb : (⟨2, ![1, N]⟩ : Shape).Broadcasts ⟨2, ![M, N]⟩)
    (dims : Fin (⟨2, ![1, N]⟩ : Shape).rank → Fin (⟨2, ![M', N]⟩ : Shape).rank)
    (hd1 : dims ⟨1, Nat.lt_succ_self 1⟩ = ⟨1, Nat.lt_succ_self 1⟩)
    (hB : (⟨2, ![1, N]⟩ : Shape).BroadcastsInDim ⟨2, ![M', N]⟩ dims) (hx : RowBlk r x X) :
    RowBlk r (Idealize.ShloMosaic.addf (matmul D prec x w (constant (F := Ideal) ⟨2, ![M, N]⟩ .f32 0x00000000#32)) (broadcastTo ⟨2, ![M, N]⟩ b hb))
      (Idealize.ShloMosaic.addf (Host.dotGeneral D' prec' X w) (broadcastInDim ⟨2, ![M', N]⟩ dims hB b)) :=
  RowBlk.addf (RowBlk.matmul_dot D hD D' hD' prec prec' .single w hx) (RowBlk.rowBias b hb dims hd1 hB)

/-- A product with a shared matrix from the zero accumulator, with no bias. -/
theorem product {φ₁ φ₂ : FTy} (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision)
    {x : FVec Ideal ⟨2, ![M, K]⟩ φ₁} {X : FVec Ideal ⟨2, ![M', K]⟩ φ₁} (w : FVec Ideal ⟨2, ![K, N]⟩ φ₂) (hx : RowBlk r x X) :
    RowBlk r (matmul D prec x w (constant (F := Ideal) ⟨2, ![M, N]⟩ .f32 0x00000000#32)) (Host.dotGeneral D' prec' X w) :=
  RowBlk.matmul_dot D hD D' hD' prec prec' .single w hx

/-- jnp's softplus, the kernel's spelling on a block and the host's on the whole matrix. -/
theorem softplus {x : FVec Ideal ⟨2, ![M, N]⟩ .f32} {X : FVec Ideal ⟨2, ![M', N]⟩ .f32}
    (dims : Fin (⟨0, ![]⟩ : Shape).rank → Fin (⟨2, ![M', N]⟩ : Shape).rank)
    (h : (⟨0, ![]⟩ : Shape).BroadcastsInDim ⟨2, ![M', N]⟩ dims) (hx : RowBlk r x X) :
    RowBlk r (kSoftplus x) (hSoftplus dims h X) := by
  rw [kSoftplus_eq, hSoftplus_eq]
  exact RowBlk.map₁ spHost hx

end RowBlk

end Cert.LibRowBlock

end
-- ==== Proof.LibRowBlockFmt.lean ====
/-
  Row blocks across float formats, and the quotient.

  On the extended reals a change of float format is the identity, so a kernel that narrows its operands before a
  product computes the product of the operands themselves. Stated for row blocks: when the M×K matrix x is rows
  r, …, r+M-1 of the M'×K matrix X as extended reals, and the K×N matrices w and W have the same entries, the
  product of x and w accumulated from zero is the same row block of the host's product of X and W, whatever formats
  the four matrices are labelled with (entry (p, q) of either is the sum over k of row entries times column entries).
  A quotient entry by entry takes row blocks to row blocks, the kernel's division and the host's being one function.
  Generic in the extents.
-/
import proofs.«145681_j16862041604212_2_alg».proof.Proof.LibRowBlock

noncomputable section

open scoped BigOperators

namespace Cert.LibRowBlock.RowBlk

open Idealize.ShloMosaic Idealize.ShloMosaic.ValueIdx

variable {M M' N K : ℕ} {r : ℕ}

/-- A product of a row block with a shared matrix, accumulated from zero, is the row block of the host's product of
    the whole matrix, whatever float formats the four operands are labelled with. -/
theorem matmul_dot_fmt {φ₁ φ₂ ψ₁ ψ₂ : FTy}
    (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (prec prec' : Option ContractPrecision) (sched : HostSchedule)
    (x : FVec Ideal ⟨2, ![M, K]⟩ φ₁) (X : FVec Ideal ⟨2, ![M', K]⟩ ψ₁)
    (w : FVec Ideal ⟨2, ![K, N]⟩ φ₂) (W : FVec Ideal ⟨2, ![K, N]⟩ ψ₂)
    (hx : RowBlk (α := EReal) r x X) (hw : ∀ i, (w i : EReal) = W i) :
    RowBlk (α := EReal) r (FloatOps.matmul D prec x w (constant (F := Ideal) ⟨2, ![M, N]⟩ .f32 0x00000000#32))
      (FloatOps.dotGeneral D' prec' sched X W) := fun p q h => by
  rw [Cert.LibMatmulPlain.matmul_plain_zero_apply D hD, Cert.LibDotGeneralPlain.dotGeneral_plain_apply D' hD']
  exact Finset.sum_congr rfl fun k _ => by rw [hx p k h, hw]

/-- A quotient entry by entry, the kernel's on a block and the host's on the whole matrix. -/
theorem divf_hostDivf {φ : FTy} {x y : FVec Ideal ⟨2, ![M, N]⟩ φ} {X Y : FVec Ideal ⟨2, ![M', N]⟩ φ}
    (hx : RowBlk r x X) (hy : RowBlk r y Y) :
    RowBlk r (Idealize.ShloMosaic.divf x y) (Host.divf X Y) := RowBlk.map₂ Ideal.div hx hy

end Cert.LibRowBlock.RowBlk

end
-- ==== Proof.FinishBlock.lean ====
/-
  The finishing stage of the graph convolution on one block of rows.

  The stage is  rst = (H · Wt + b) ⊙ spread(1/√max(deg, 1)) + X  over 100000 nodes and 64 features: H the aggregated
  features, Wt the transposed weight, b the bias as a [1, 64] row, deg the in-degree as a [100000, 1] column, X the
  node features. The kernel computes it 2000 rows at a time. Every operation of the stage either acts entry by entry
  or combines a row with something all rows share (the product with Wt, the bias row) or spreads a column entry along
  its own row, so the stage computed on rows r … r+1999 of (H, deg, X) is rows r … r+1999 of the stage computed on all
  rows. On the extended reals the narrowing of the product's operands to bf16 is the identity, so the block's product
  from the zero accumulator has the entries Σ_k H(p, k) · Wt(k, q) of the whole product.
-/
import proofs.«145681_j16862041604212_2_alg».proof.Proof.Gen.KernelIdeal.Skeleton
import proofs.«145681_j16862041604212_2_alg».proof.Proof.LibRowBlockOps
import proofs.«145681_j16862041604212_2_alg».proof.Proof.LibRowBlockFmt

noncomputable section

namespace Cert.Finish

open Idealize.ShloMosaic Idealize.ShloMosaic.ValueIdx Cert.LibRowBlock Cert.KernelIdeal Cert.KernelIdeal.Gen

/-- The normalisation column on all rows, in the kernel's spelling: 1/√max(deg, 1) entry by entry. -/
def normCol (deg : FVec Ideal ⟨2, ![100000, 1]⟩ .f32) : FVec Ideal ⟨2, ![100000, 1]⟩ .f32 :=
  fun i => Ideal.rsqrt (max (deg i) (Ideal.ofBits .f32 0x3F800000#32))

/-- The finishing stage on all rows, in host operations: (H · Wt + spread b) ⊙ spread nrm + X. -/
def finishAll (D' : DotDims ⟨2, ![100000, 64]⟩ ⟨2, ![64, 64]⟩ ⟨2, ![100000, 64]⟩)
    (dB : Fin (⟨2, ![1, 64]⟩ : Shape).rank → Fin (⟨2, ![100000, 64]⟩ : Shape).rank)
    (hB : (⟨2, ![1, 64]⟩ : Shape).BroadcastsInDim ⟨2, ![100000, 64]⟩ dB)
    (dC : Fin (⟨2, ![100000, 1]⟩ : Shape).rank → Fin (⟨2, ![100000, 64]⟩ : Shape).rank)
    (hC : (⟨2, ![100000, 1]⟩ : Shape).BroadcastsInDim ⟨2, ![100000, 64]⟩ dC)
    (H : FVec Ideal ⟨2, ![100000, 64]⟩ .f32) (Wt : FVec Ideal ⟨2, ![64, 64]⟩ .f32) (bRow : FVec Ideal ⟨2, ![1, 64]⟩ .f32)
    (nrm : FVec Ideal ⟨2, ![100000, 1]⟩ .f32) (X : FVec Ideal ⟨2, ![100000, 64]⟩ .f32) : FVec Ideal ⟨2, ![100000, 64]⟩ .f32 :=
  addf (mulf (addf (Host.dotGeneral D' none H Wt) (broadcastInDim ⟨2, ![100000, 64]⟩ dB hB bRow))
    (broadcastInDim ⟨2, ![100000, 64]⟩ dC hC nrm)) X

/-- The kernel body's stored value, computed from rows r … r+1999 of H, deg and X and from the shared Wt and b, is
    rows r … r+1999 of the finishing stage on all rows. -/
theorem pay_rowBlk (r : ℕ) (D' : DotDims ⟨2, ![100000, 64]⟩ ⟨2, ![64, 64]⟩ ⟨2, ![100000, 64]⟩)
    (hD' : D' = DotDims.plain 100000 64 64)
    (dB : Fin (⟨2, ![1, 64]⟩ : Shape).rank → Fin (⟨2, ![100000, 64]⟩ : Shape).rank)
    (hdB : dB ⟨1, Nat.lt_succ_self 1⟩ = ⟨1, Nat.lt_succ_self 1⟩)
    (hB : (⟨2, ![1, 64]⟩ : Shape).BroadcastsInDim ⟨2, ![100000, 64]⟩ dB)
    (dC : Fin (⟨2, ![100000, 1]⟩ : Shape).rank → Fin (⟨2, ![100000, 64]⟩ : Shape).rank)
    (hdC : dC ⟨0, Nat.succ_pos 1⟩ = ⟨0, Nat.succ_pos 1⟩)
    (hC : (⟨2, ![100000, 1]⟩ : Shape).BroadcastsInDim ⟨2, ![100000, 64]⟩ dC)
    (x0 : Vec Ideal S2000x64 .f32) (x1 : Vec Ideal S64x64 .f32) (x2 : Vec Ideal S1x64 .f32)
    (x3 : Vec Ideal S2000x1 .f32) (x4 : Vec Ideal S2000x64 .f32)
    (H : FVec Ideal ⟨2, ![100000, 64]⟩ .f32) (deg : FVec Ideal ⟨2, ![100000, 1]⟩ .f32) (X : FVec Ideal ⟨2, ![100000, 64]⟩ .f32)
    (h0 : RowBlk (α := EReal) r x0 H) (h3 : RowBlk (α := EReal) r x3 deg) (h4 : RowBlk (α := EReal) r x4 X) :
    RowBlk (α := EReal) r (k0_pay1 x0 x1 x2 x3 x4) (finishAll D' dB hB dC hC H x1 x2 (normCol deg) X) := by
  unfold k0_pay1 finishAll
  simp only [shapeCast_self]
  refine RowBlk.addf (RowBlk.mulf (RowBlk.addf ?_ ?_) ?_) h4
  · exact RowBlk.matmul_dot_fmt _ rfl D' hD' none none .single _ H _ x1 h0 (fun _ => rfl)
  · exact RowBlk.rowBias x2 _ dB hdB hB
  · exact RowBlk.colSpread
      (RowBlk.map₁ (fun d : EReal => Ideal.rsqrt (max d (Ideal.ofBits .f32 0x3F800000#32))) h3) _ dC hdC hC

end Cert.Finish

end
-- ==== Proof.FinishWindows.lean ====
/-
  The blocks the finishing kernel is handed at a grid point.

  Grid point t (of fifty) is handed rows 2000·t … 2000·t+1999 of the aggregated features H, of the degree column and of
  the node features X, and — at every point — the whole transposed weight and the whole bias row: the index maps of the
  row-blocked windows send t to block (t, 0), those of the shared windows send it to block (0, 0), and a block's
  coordinate is the block index times the block size plus the coordinate inside the block. Each fact is about reading
  an arbitrary array through the window's block; which array the window stages plays no part.
-/
import proofs.«145681_j16862041604212_2_alg».proof.Proof.Gen.KernelIdeal.Value
import proofs.«145681_j16862041604212_2_alg».proof.Proof.LibRowBlock

noncomputable section

open Idealize.ShloMosaic Idealize.ShloMosaic.TcCoe Idealize.SL.Sem
open Idealize.ShloMosaic.Pipeline (Dat)

namespace Cert.Finish

open Idealize.ShloMosaic.ValueIdx Cert.LibRowBlock Cert.KernelIdeal Cert.KernelIdeal.Gen Cert.KernelIdeal.Value

/-- The printed index maps of the row-blocked windows (H, the degree column, X, the result), decided over the grid:
    point t is at block row t, block column 0. -/
theorem idx_rows : ∀ t : Fin cfg0.N,
    (win0_0.index t (0 : Fin 2) = t.val ∧ win0_0.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- The printed index maps of the shared windows (the transposed weight, the bias row): every point is at block (0, 0). -/
theorem idx_shared : ∀ t : Fin cfg0.N,
    (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

/-- Point t's block of the window that stages H, read off any array, is rows 2000·t … of that array. -/
theorem readH (t : Fin cfg0.N) (A : S100000x64.Idx → EReal) :
    RowBlk (M := 2000) (M' := 100000) (N := 64) (α := EReal) (2000 * t.val) (((cfg0.win 0).blk t).view.read (Elt Ideal) A) A := fun p q h => by
  obtain ⟨e0, e1⟩ := (idx_rows t).1
  rw [View.read_apply]
  refine congrArg A (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 64 + 1 * q.val = q.val; rw [e1]; omega

/-- Point t's block of the window that stages the degree column is rows 2000·t … of the array. -/
theorem readDeg (t : Fin cfg0.N) (A : S100000x1.Idx → EReal) :
    RowBlk (M := 2000) (M' := 100000) (N := 1) (α := EReal) (2000 * t.val) (((cfg0.win 3).blk t).view.read (Elt Ideal) A) A := fun p q h => by
  obtain ⟨e0, e1⟩ := (idx_rows t).2.1
  rw [View.read_apply]
  refine congrArg A (funext fun a => Fin.ext ?_)
  match a with
  | ⟨0, _⟩ => show win0_3.index t (0 : Fin 2) * 2000 + 1 * p.val = 2000 * t.val + p.val; rw [e0]; omega
  | ⟨1, _⟩ => show win0_3.index t (1 : Fin 2) * 1 + 1 * q.val = q.val; rw [e1]; omega

/-- Point t's block of the window that stages X is rows 2000·t … of the array. -/
theorem readX (t : Fin cfg0.N) (A : S100000x64.Idx → EReal) :
    RowBlk (M := 2000) (M' := 100000) (N := 64) (α := EReal) (2000 * t.val) (((cfg0.win 4).blk t).view.read (Elt Ideal) A) A := fun p q h => by
  obtain ⟨e0, e1⟩ := (idx_rows t).2.2.1
  rw [View.read_apply]
  refine congrArg A (funext fun a => Fin.ext ?_)
  match a with
  | ⟨0, _⟩ => show win0_4.index t (0 : Fin 2) * 2000 + 1 * p.val = 2000 * t.val + p.val; rw [e0]; omega
  | ⟨1, _⟩ => show win0_4.index t (1 : Fin 2) * 64 + 1 * q.val = q.val; rw [e1]; omega

/-- Point t's block of the result window is rows 2000·t … of the array. -/
theorem readOut (t : Fin cfg0.N) (A : S100000x64.Idx → EReal) :
    RowBlk (M := 2000) (M' := 100000) (N := 64) (α := EReal) (2000 * t.val) (((cfg0.win 5).blk t).view.read (Elt Ideal) A) A := fun p q h => by
  obtain ⟨e0, e1⟩ := (idx_rows t).2.2.2
  rw [View.read_apply]
  refine congrArg A (funext fun a => Fin.ext ?_)
  match a with
  | ⟨0, _⟩ => show win0_5.index t (0 : Fin 2) * 2000 + 1 * p.val = 2000 * t.val + p.val; rw [e0]; omega
  | ⟨1, _⟩ => show win0_5.index t (1 : Fin 2) * 64 + 1 * q.val = q.val; rw [e1]; omega

/-- Every point's block of the window that stages the transposed weight is the whole array. -/
theorem readW (t : Fin cfg0.N) (A : S64x64.Idx → EReal) : ((cfg0.win 1).blk t).view.read (Elt Ideal) A = A := by
  obtain ⟨e0, e1⟩ := (idx_shared t).1
  funext j
  rw [View.read_apply]
  refine congrArg A (funext fun a => Fin.ext ?_)
  match a with
  | ⟨0, _⟩ => show win0_1.index t (0 : Fin 2) * 64 + 1 * (j 0).val = (j 0).val; rw [e0]; omega
  | ⟨1, _⟩ => show win0_1.index t (1 : Fin 2) * 64 + 1 * (j 1).val = (j 1).val; rw [e1]; omega

/-- Every point's block of the window that stages the bias row is the whole array. -/
theorem readB (t : Fin cfg0.N) (A : S1x64.Idx → EReal) : ((cfg0.win 2).blk t).view.read (Elt Ideal) A = A := by
  obtain ⟨e0, e1⟩ := (idx_shared t).2
  funext j
  rw [View.read_apply]
  refine congrArg A (funext fun a => Fin.ext ?_)
  match a with
  | ⟨0, _⟩ => show win0_2.index t (0 : Fin 2) * 1 + 1 * (j 0).val = (j 0).val; rw [e0]; omega
  | ⟨1, _⟩ => show win0_2.index t (1 : Fin 2) * 64 + 1 * (j 1).val = (j 1).val; rw [e1]; omega

end Cert.Finish

end
-- ==== Proof.FinishArray.lean ====
/-
  From the kernel's row blocks to the whole result array.

  Grid point t of the finishing kernel is handed rows 2000·t … 2000·t+1999 of the aggregated features H, of the degree
  column and of the node features X, together with the whole transposed weight and the whole bias row, and writes back
  rows 2000·t … 2000·t+1999 of the result. What it writes is the same rows of the finishing stage computed on all rows
  (FinishBlock), whatever the five arrays are. The fifty blocks tile the 100000 rows — row i belongs to point i / 2000 —
  so after the run the result array is the finishing stage on all rows, of the arrays as the kernel finds them.
-/
import proofs.«145681_j16862041604212_2_alg».proof.Proof.Gen.KernelIdeal.Value
import proofs.«145681_j16862041604212_2_alg».proof.Proof.FinishBlock
import proofs.«145681_j16862041604212_2_alg».proof.Proof.FinishWindows

noncomputable section

open Idealize.ShloMosaic Idealize.ShloMosaic.TcCoe Idealize.SL.Sem
open Idealize.ShloMosaic.Pipeline (Dat)

namespace Cert.Finish

open Idealize.ShloMosaic.ValueIdx Cert.LibRowBlock Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

section
variable (D' : DotDims ⟨2, ![100000, 64]⟩ ⟨2, ![64, 64]⟩ ⟨2, ![100000, 64]⟩) (hD' : D' = DotDims.plain 100000 64 64)
  (dB : Fin (⟨2, ![1, 64]⟩ : Shape).rank → Fin (⟨2, ![100000, 64]⟩ : Shape).rank)
  (hdB : dB ⟨1, Nat.lt_succ_self 1⟩ = ⟨1, Nat.lt_succ_self 1⟩)
  (hB : (⟨2, ![1, 64]⟩ : Shape).BroadcastsInDim ⟨2, ![100000, 64]⟩ dB)
  (dC : Fin (⟨2, ![100000, 1]⟩ : Shape).rank → Fin (⟨2, ![100000, 64]⟩ : Shape).rank)
  (hdC : dC ⟨0, Nat.succ_pos 1⟩ = ⟨0, Nat.succ_pos 1⟩)
  (hC : (⟨2, ![100000, 1]⟩ : Shape).BroadcastsInDim ⟨2, ![100000, 64]⟩ dC)

include hD' hdB hdC in
/-- WHAT A POINT WRITES BACK, for any five arrays behind the input windows: the body's stored value of the arrays'
    blocks at point t is rows 2000·t … 2000·t+1999 of the finishing stage of the whole arrays. -/
theorem flush_block (t : Fin cfg0.N) (AH : S100000x64.Idx → EReal) (AW : S64x64.Idx → EReal) (AB : S1x64.Idx → EReal)
    (AD : S100000x1.Idx → EReal) (AX : S100000x64.Idx → EReal) :
    (cfg0.win 5).cut (grid0.coords t)
        (out0_5 (((cfg0.win 0).blk t).view.read (Elt Ideal) AH) (((cfg0.win 1).blk t).view.read (Elt Ideal) AW)
          (((cfg0.win 2).blk t).view.read (Elt Ideal) AB) (((cfg0.win 3).blk t).view.read (Elt Ideal) AD)
          (((cfg0.win 4).blk t).view.read (Elt Ideal) AX))
      = ((cfg0.win 5).blk t).view.read (Elt Ideal) (finishAll D' dB hB dC hC AH AW AB (normCol AD) AX) := by
  unfold out0_5
  rw [View.canon_unit_zero hz]
  simp only [View.ld_unit_zero (S := S2000x64) hz, View.ld_unit_zero (S := S64x64) hz, View.ld_unit_zero (S := S1x64) hz,
    View.ld_unit_zero (S := S2000x1) hz]
  rw [readW, readB]
  funext j
  obtain ⟨p, q, rfl⟩ : ∃ (p : Fin 2000) (q : Fin 64), j = ix2 p q := ⟨j 0, j 1, eq_ix2 j⟩
  have hlt : 2000 * t.val + p.val < 100000 := by
    have h1 : t.val < 50 := lt_of_lt_of_eq t.isLt N_0
    have h2 := p.isLt
    omega
  show k0_pay1 (((cfg0.win 0).blk t).view.read (Elt Ideal) AH) AW AB (((cfg0.win 3).blk t).view.read (Elt Ideal) AD)
      (((cfg0.win 4).blk t).view.read (Elt Ideal) AX) (ix2 p q) = _
  exact ((pay_rowBlk (2000 * t.val) D' hD' dB hdB hB dC hdC hC
      (((cfg0.win 0).blk t).view.read (Elt Ideal) AH) AW AB (((cfg0.win 3).blk t).view.read (Elt Ideal) AD)
      (((cfg0.win 4).blk t).view.read (Elt Ideal) AX) AH AD AX (readH t AH) (readDeg t AD) (readX t AX)) p q hlt).trans
    ((readOut t (finishAll D' dB hB dC hC AH AW AB (normCol AD) AX)) p q hlt).symm

/-- The finishing stage on all rows, of the arrays as the kernel finds them. -/
def result (c : Dev nD) : Buf (Elt Ideal) ((c : Thread nD τ).loc main_v34) :=
  finishAll D' dB hB dC hC (V m c (Pipeline.arrRef spec0 0)) (V m c (Pipeline.arrRef spec0 1)) (V m c (Pipeline.arrRef spec0 2))
    (normCol (V m c (Pipeline.arrRef spec0 3))) (V m c (Pipeline.arrRef spec0 4))

include hD' hdB hdC in
/-- What point t writes back is rows 2000·t … 2000·t+1999 of `result`. -/
theorem flushed_eq (c : Dev nD) (t : Fin cfg0.N) :
    (dats m 0 c).flushed 5 t = ((cfg0.win 5).blk t).view.read (Elt Ideal) (result m D' dB hB dC hC c) :=
  (flushed5 m c t).trans (flush_block D' hD' dB hdB hB dC hdC hC t _ _ _ _ _)

/-- An index of the result array is in point t's block iff each coordinate is in the block's range on its axis. -/
theorem mem_blk (t : Fin cfg0.N) (i : S100000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v34).slice (win0_5.rect t)).set ↔ _
  rw [View.set_slice_whole, Rect.mem_set_unit]
  exact Iff.rfl

/-- Row i is in the block of point i / 2000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨e0, e1⟩ := (idx_rows t).2.2.2
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 64 ≤ (i 1).val ∧ (i 1).val < win0_5.index t (1 : Fin 2) * 64 + 64
    rw [e1]; omega

include hD' hdB hdC in
/-- After the run the result array is the finishing stage on all rows. -/
theorem final (c : Dev nD) : (dats m 0 c).arrAt 5 cfg0.N = result m D' dB hB dC hC c :=
  (dats m 0 c).arrAt_eq_of_cover 5 (result m D' dB hB dC hC c) (fun t _ => flushed_eq m D' hD' dB hdB hB dC hdC hC c t) cover

include hD' hdB hdC in
/-- The kernel program's run, read: the first result is the finishing stage on all rows of the arrays the host
    operations before the call leave, the second result is as those operations leave it, the arguments are unchanged. -/
theorem run : θ_run defs (onTc (τ := τ) (main (F := Ideal))) ⟨m, fun _ => 0, ρ⟩ fun r => ∀ c : Dev nD,
      r.2.mem ((c : Thread nD τ).loc main_v34) = result m D' dB hB dC hC c
      ∧ r.2.mem ((c : Thread nD τ).loc main_v25) = V m c main_v25
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post5 m r h c).trans (final m D' hD' dB hdB hB dC hdC hC c),
      (h c).2 main_v25 (Pipeline.mem_restRefs_of main_v25 (by decide) (by decide)),
      kept_main_arg0 m r h c,
      kept_main_arg1 m r h c,
      kept_main_arg2 m r h c,
      kept_main_arg3 m r h c,
      kept_main_arg4 m r h c,
      kept_main_arg5 m r h c⟩)
    (run_main m ρ)

end

end Cert.Finish

end
-- ==== Proof.HostValues.lean ====
/-
  The arrays the finishing kernel finds, as functions of the program's arguments.

  Before the kernel is launched the program computes, by host operations, the aggregated features
  H = segment_sum(x[src] + edge_fea, dst), the edge update e_new = H[src] + H[dst], the in-degree counted in 32-bit
  integers (a scatter that adds the integer 1 for every edge) and converted to a float, the transposed weight, the bias
  as a row and the degree as a column. The reference program computes H, e_new and the transposed weight by the same
  operations on the same arguments, so those three are the reference's own stages, term for term. The degree differs
  in spelling only: here an integer count converted, there a float count.
-/
import proofs.«145681_j16862041604212_2_alg».proof.Proof.Gen.KernelIdeal.Frame
import proofs.«145681_j16862041604212_2_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.Finish

open Cert.KernelIdeal Cert.KernelIdeal.Gen

variable (m : (ℓ : Loc nD τ sig) → Buf (Elt Ideal) ℓ)

/-- The in-degree counted in 32-bit integers: a scatter that adds, from zeros, of the integer 1 per edge, at the
    edge's destination. -/
def degInt (dst : (⟨S1600000, .i32⟩ : BufTy).Contents (Elt Ideal)) : (⟨S100000, .i32⟩ : BufTy).Contents (Elt Ideal) :=
  Host.scatter Cert.ReferenceIdeal.scatter_S100000_S1600000x1_S1600000_n_0_0_1 IntOp.addi
    (broadcastInDim S100000 ![] Cert.ReferenceIdeal.Gen.bcast_S_S100000 (constantI S_ 32 0#32))
    (Cert.ReferenceIdeal.Read.val_main_v28 (F := Ideal) dst)
    (broadcastInDim S1600000 ![] Cert.ReferenceIdeal.Gen.bcast_S_S1600000 (constantI S_ 32 1#32))

set_option maxRecDepth 8192 in
set_option maxHeartbeats 2000000 in
/-- The kernel finds the aggregated features the reference computes. -/
theorem found_H (c : Dev nD) : (V m c main_v10 : S100000x64.Idx → EReal)
    = Cert.ReferenceIdeal.Read.val_main_v10 (F := Ideal) (m ((c : Thread nD τ).loc main_arg0)) (m ((c : Thread nD τ).loc main_arg1)) (m ((c : Thread nD τ).loc main_arg4)) (m ((c : Thread nD τ).loc main_arg5)) := by
  dsimp only [Gen.V, Gen.hostOps0]; after_results_simp <;> rfl

/-- The kernel finds the transposed weight the reference computes. -/
theorem found_Wt (c : Dev nD) : (V m c main_v31 : S64x64.Idx → EReal)
    = Cert.ReferenceIdeal.Read.val_main_v33 (F := Ideal) (m ((c : Thread nD τ).loc main_arg2)) := by
  dsimp only [Gen.V, Gen.hostOps0]; after_results; rfl

/-- The kernel finds the bias reshaped to a row. -/
theorem found_b (c : Dev nD) : (V m c main_v32 : S1x64.Idx → EReal)
    = shapeCast S1x64 ((m ((c : Thread nD τ).loc main_arg3)) : S64.Idx → EReal) shapeCasts_S64_S1x64 := by
  dsimp only [Gen.V, Gen.hostOps0]; after_results; rfl

/-- The kernel finds the integer degree, converted to a float and reshaped to a column. -/
theorem found_deg (c : Dev nD) : (V m c main_v33 : S100000x1.Idx → EReal)
    = shapeCast S100000x1 (sitofp (F := Ideal) .f32 (degInt (m ((c : Thread nD τ).loc main_arg5))) : S100000.Idx → EReal) shapeCasts_S100000_S100000x1 := by
  dsimp only [Gen.V, Gen.hostOps0]; after_results; rfl

set_option maxRecDepth 8192 in
set_option maxHeartbeats 2000000 in
/-- The program's second result, the edge update, is the reference's. -/
theorem found_enew (c : Dev nD) : (V m c main_v25 : S1600000x64.Idx → EReal)
    = Cert.ReferenceIdeal.Read.val_main_v25 (F := Ideal) (m ((c : Thread nD τ).loc main_arg0)) (m ((c : Thread nD τ).loc main_arg1)) (m ((c : Thread nD τ).loc main_arg4)) (m ((c : Thread nD τ).loc main_arg5)) := by
  dsimp only [Gen.V, Gen.hostOps0]; after_results_simp <;> rfl

end Cert.Finish

end
-- ==== Proof.LibScatterCount.lean ====
/-
  Counting with a scatter.

  A scatter whose body adds, run on updates that are all the integer 1, counts: the entry it leaves at an operand
  index i is the operand's entry there plus the number of update positions whose result index is i (an update that
  lands outside the operand is dropped and is counted nowhere). The scatter is a left fold over the update positions
  in row-major order, each step adding 1 at one entry; by induction over the list the entry at i has grown by the
  number of positions of the list that land at i, and over the whole range that number is the cardinality of the set
  { j | resultIdx j = i }.

  Consequence over the extended reals: with 32-bit entries, fewer than 2^31 updates and an operand of zeros the count
  does not wrap, so the entry read as a signed integer is that cardinality, and converting it to a float gives the
  same extended real as the float scatter-add of ones onto zeros, which is 0 + Σ_{j lands at i} 1 by definition.
  Generic in the three shapes and in the index width.
-/
import Idealize.ShloMosaic.PureOps.Ideal.Laws
import Idealize.ShloMosaic.Lib.ValueIdx

noncomputable section

open scoped BigOperators

namespace Cert.LibScatterCount

open Idealize.ShloMosaic

variable {s si u : Shape} {w : ℕ}

/-- The number of update positions that land at operand index `i`. -/
def landing (d : ScatterDims s si u) (idx : IVec si w) (i : s.Idx) : ℕ :=
  (Finset.univ.filter fun j : u.Idx => d.resultIdx? j idx = some i).card

/-- Over any list of update positions, the fold that adds 1 where a position lands leaves at `i` the starting entry
    plus the number of positions of the list landing at `i`. -/
theorem fold_ones (d : ScatterDims s si u) (idx : IVec si w) (upd : u.Idx → BitVec 32) (h1 : ∀ j, upd j = 1#32)
    (l : List (Fin u.numel)) (x : s.Idx → BitVec 32) (i : s.Idx) :
    (l.foldl (fun r n =>
        match d.resultIdx? (u.rowMajor.symm n) idx with
        | some i0 => fun i' => if i' = i0 then IntOp.addi (r i0) (upd (u.rowMajor.symm n)) else r i'
        | none => r) x) i
      = x i + BitVec.ofNat 32 (l.countP fun n => decide (d.resultIdx? (u.rowMajor.symm n) idx = some i)) := by
  induction l generalizing x with
  | nil => simp
  | cons n l ih =>
    rw [List.foldl_cons, ih, List.countP_cons]
    cases hres : d.resultIdx? (u.rowMajor.symm n) idx with
    | none => simp
    | some i0 =>
      by_cases hi : i = i0
      · subst hi
        simp only [if_true, h1, IntOp.addi, decide_true, BitVec.ofNat_add]
        rw [show BitVec.ofNat 32 1 = 1#32 from rfl]
        ac_rfl
      · have hne : ¬ (some i0 = some i) := fun h => hi (Option.some.inj h).symm
        simp only [if_neg hi, hne, decide_false, Bool.false_eq_true, if_false, Nat.add_zero]

/-- Counting along the range of positions is the cardinality of the set of landing updates. -/
theorem countP_range (d : ScatterDims s si u) (idx : IVec si w) (i : s.Idx) :
    ((List.finRange u.numel).countP fun n => decide (d.resultIdx? (u.rowMajor.symm n) idx = some i)) = landing d idx i := by
  unfold landing
  rw [← Finset.card_equiv u.rowMajor.symm (s := Finset.univ.filter fun n : Fin u.numel => d.resultIdx? (u.rowMajor.symm n) idx = some i)
    (fun n => by simp only [Finset.mem_filter, Finset.mem_univ, true_and])]
  rw [List.countP_eq_length_filter, Finset.card, Finset.filter_val, Fin.univ_def]
  simp only [Multiset.filter_coe, Multiset.coe_card]

/-- The scatter that adds, on updates all 1: the entry at `i` grows by the number of updates landing at `i`. -/
theorem scatter_ones_apply (d : ScatterDims s si u) (idx : IVec si w) (x : s.Idx → BitVec 32) (upd : u.Idx → BitVec 32)
    (h1 : ∀ j, upd j = 1#32) (i : s.Idx) :
    Host.scatter d IntOp.addi x idx upd i = x i + BitVec.ofNat 32 (landing d idx i) := by
  refine (fold_ones d idx upd h1 (List.finRange u.numel) x i).trans ?_
  rw [countP_range]

/-- No more updates land anywhere than there are updates. -/
theorem landing_le (d : ScatterDims s si u) (idx : IVec si w) (i : s.Idx) : landing d idx i ≤ u.numel := by
  unfold landing
  calc _ ≤ (Finset.univ : Finset u.Idx).card := Finset.card_filter_le _ _
    _ = u.numel := by rw [Finset.card_univ, Shape.card_idx]

/-- From zeros, with fewer than 2^31 updates, the count read as a signed 32-bit integer is the count. -/
theorem toInt_count (hu : u.numel < 2 ^ 31) (d : ScatterDims s si u) (idx : IVec si w) (x : s.Idx → BitVec 32)
    (upd : u.Idx → BitVec 32) (hx : ∀ i, x i = 0#32) (h1 : ∀ j, upd j = 1#32) (i : s.Idx) :
    (Host.scatter d IntOp.addi x idx upd i).toInt = (landing d idx i : ℤ) := by
  rw [scatter_ones_apply d idx x upd h1, hx, BitVec.zero_add]
  have hle := landing_le d idx i
  have hlt : landing d idx i < 2 ^ 32 := by omega
  rw [BitVec.toInt_eq_toNat_of_lt (by rw [BitVec.toNat_ofNat, Nat.mod_eq_of_lt hlt]; omega), BitVec.toNat_ofNat,
    Nat.mod_eq_of_lt hlt]

/-- THE TWO DEGREE COUNTS ARE ONE NUMBER. Over the extended reals, the integer count converted to a float and the float
    scatter-add of ones onto zeros are both the number of landing updates. -/
theorem count_forms (hu : u.numel < 2 ^ 31) (d : ScatterDims s si u) (idx : IVec si w)
    (zI : IVec s 32) (oI : IVec u 32) (hz : ∀ i, zI i = 0#32) (ho : ∀ j, oI j = 1#32)
    (zF : FVec Ideal s .f32) (oF : FVec Ideal u .f32) (hzF : ∀ i, zF i = 0) (hoF : ∀ j, oF j = 1) (i : s.Idx) :
    sitofp (F := Ideal) .f32 (Host.scatter d IntOp.addi zI idx oI) i = ((landing d idx i : ℝ) : EReal)
      ∧ Host.scatterAdd d zF idx oF i = ((landing d idx i : ℝ) : EReal) := by
  constructor
  · show ((((Host.scatter d IntOp.addi zI idx oI i).toInt : ℤ) : ℝ) : EReal) = _
    rw [toInt_count hu d idx zI oI hz ho, Int.cast_natCast]
  · show zF i + ∑ j ∈ Finset.univ.filter (fun j => d.resultIdx? j idx = some i), oF j = _
    rw [hzF, zero_add, Finset.sum_congr rfl (fun j _ => hoF j), Finset.sum_const, nsmul_one]
    rfl

end Cert.LibScatterCount

end
-- ==== Proof.LibRsqrtPow.lean ====
/-
  The reciprocal square root and the power -1/2.

  For a positive real r, 1/√r = r^(-1/2): the square root is the power 1/2, and a negated exponent inverts. On the
  extended reals the kernel's rsqrt and the host's power agree at every positive real; in particular at max(d, 1) for
  a real d, which is at least 1 whatever d is (the maximum taken in either order). The two float patterns met here:
  0x3F800000 is the number 1 (sign +, biased exponent 127, fraction 0), 0xBF000000 is -1/2 (sign -, biased exponent
  126, fraction 0).
-/
import Idealize.ShloMosaic.PureOps.Ideal.Laws

noncomputable section

namespace Cert.LibRsqrtPow

open Idealize.ShloMosaic

/-- The pattern 0x3F800000 is 1. -/
theorem ofBits_one : Ideal.ofBits .f32 0x3F800000#32 = 1 := by
  simp [Ideal.ofBits, Ideal.ieee, -EReal.coe_mul]; norm_num

/-- The pattern 0xBF000000 is -1/2. -/
theorem ofBits_neg_half : Ideal.ofBits .f32 0xBF000000#32 = ((-(1 / 2) : ℝ) : EReal) := by
  simp [Ideal.ofBits, Ideal.ieee, -EReal.coe_mul]; norm_num

/-- The maximum of two reals, taken on the extended reals, is the real maximum. -/
theorem coe_max (a b : ℝ) : max (a : EReal) (b : EReal) = ((max a b : ℝ) : EReal) :=
  (EReal.coe_strictMono.monotone.map_max).symm

/-- At a positive real the reciprocal square root is the power -1/2. -/
theorem rsqrt_eq_pow (r : ℝ) (hr : 0 < r) :
    Ideal.rsqrt (r : EReal) = Ideal.pow (r : EReal) ((-(1 / 2) : ℝ) : EReal) := by
  rw [Ideal.rsqrt_coe, if_neg (not_lt.2 hr.le), if_neg hr.ne', Ideal.pow_coe_coe]
  refine congrArg _ ?_
  show (Real.sqrt r)⁻¹ = r ^ (-(1 / 2) : ℝ)
  rw [Real.rpow_neg hr.le, Real.sqrt_eq_rpow]

/-- 1/√max(d, 1) = max(1, d)^(-1/2) at every real d. -/
theorem rsqrt_max_eq_pow_max (d : ℝ) :
    Ideal.rsqrt (max (d : EReal) 1) = Ideal.pow (max 1 (d : EReal)) ((-(1 / 2) : ℝ) : EReal) := by
  rw [max_comm (1 : EReal), show (1 : EReal) = ((1 : ℝ) : EReal) from rfl, coe_max]
  exact rsqrt_eq_pow _ (lt_of_lt_of_le one_pos (le_max_right d 1))

end Cert.LibRsqrtPow

end
-- ==== Proof.LibRows.lean ====
/-
  A vector laid out as a one-row matrix, two ways, and entrywise operations on it.

  A vector of length n becomes the row [1, n] either by a reshape (both sit at row-major position q) or by a broadcast
  that places it along axis 1; the two rows are the same function. An operation applied entry by entry commutes with
  forming the row: in particular 1/sqrt(v + ε) taken on the row with ε splat over the row is the row of
  1/sqrt(v + ε) taken on the vector with ε broadcast over the vector (the kernel's rsqrt and the host's are one
  function on the extended reals). Generic in n.
-/
import proofs.«145681_j16862041604212_2_alg».proof.Proof.LibHostBroadcast
import proofs.«145681_j16862041604212_2_alg».proof.Proof.LibColumns
import Idealize.ShloMosaic.PureOps.Ideal.Laws

noncomputable section

namespace Cert.LibRows

open Idealize.ShloMosaic Idealize.ShloMosaic.ValueIdx

variable {α : Type} {n : ℕ}

/-- The reshape of a vector to a row is the broadcast of the vector along axis 1 of the row. -/
theorem reshape_row_eq_bcast (y : (⟨1, ![n]⟩ : Shape).Idx → α) (hc : (⟨1, ![n]⟩ : Shape).ShapeCasts ⟨2, ![1, n]⟩)
    (dims : Fin (⟨1, ![n]⟩ : Shape).rank → Fin (⟨2, ![1, n]⟩ : Shape).rank) (hd : dims ⟨0, Nat.one_pos⟩ = ⟨1, Nat.lt_succ_self 1⟩)
    (hB : (⟨1, ![n]⟩ : Shape).BroadcastsInDim ⟨2, ![1, n]⟩ dims) :
    shapeCast ⟨2, ![1, n]⟩ y hc = broadcastInDim ⟨2, ![1, n]⟩ dims hB y := by
  funext j
  obtain ⟨u, q, rfl⟩ : ∃ (u : Fin 1) (q : Fin n), j = ix2 u q := ⟨j 0, j 1, eq_ix2 j⟩
  rw [Cert.LibHostBroadcast.bcast_b_1b_apply dims hd hB]
  exact shapeCast_apply y hc _ _ (by
    have hu : u.val = 0 := by omega
    rw [Shape.rowMajor_val_two, Shape.rowMajor_val_one]
    show q.val = u.val * n + q.val
    rw [hu, Nat.zero_mul, Nat.zero_add])

/-- 1/sqrt(v + ε) on the row of a vector is the row of 1/sqrt(v + ε) on the vector. -/
theorem rsqrt_add_row (e : BitVec 32) (y : FVec Ideal ⟨1, ![n]⟩ .f32)
    (dims : Fin (⟨1, ![n]⟩ : Shape).rank → Fin (⟨2, ![1, n]⟩ : Shape).rank) (hd : dims ⟨0, Nat.one_pos⟩ = ⟨1, Nat.lt_succ_self 1⟩)
    (hB : (⟨1, ![n]⟩ : Shape).BroadcastsInDim ⟨2, ![1, n]⟩ dims)
    (d0 : Fin (⟨0, ![]⟩ : Shape).rank → Fin (⟨1, ![n]⟩ : Shape).rank) (h0 : (⟨0, ![]⟩ : Shape).BroadcastsInDim ⟨1, ![n]⟩ d0) :
    rsqrt (addf (broadcastInDim ⟨2, ![1, n]⟩ dims hB y) (broadcast ⟨2, ![1, n]⟩ (Scalar.ofBits (F := Ideal) .f32 e)))
      = broadcastInDim ⟨2, ![1, n]⟩ dims hB
          (Host.rsqrt (addf y (broadcastInDim ⟨1, ![n]⟩ d0 h0 (constant (F := Ideal) ⟨0, ![]⟩ .f32 e)))) := by
  funext j
  obtain ⟨u, q, rfl⟩ : ∃ (u : Fin 1) (q : Fin n), j = ix2 u q := ⟨j 0, j 1, eq_ix2 j⟩
  rw [Cert.LibHostBroadcast.bcast_b_1b_apply dims hd hB]
  show FloatOps.rsqrt (FloatOps.addf (broadcastInDim ⟨2, ![1, n]⟩ dims hB y (ix2 u q)) (Ideal.ofBits .f32 e))
    = Ideal.rsqrt (FloatOps.addf (y (ix1 q)) (Ideal.ofBits .f32 e))
  rw [Cert.LibHostBroadcast.bcast_b_1b_apply dims hd hB]
  rfl

end Cert.LibRows

end
-- ==== Proof.LibColumnVector.lean ====
/-
  A vector and the column that holds it.

  A vector of length a placed along axis 0 of an [a, 1] column (a host broadcast) and the same vector cast to the shape
  [a, 1] are one array: entry (p, 0) is the vector's entry p either way, both sitting at row-major position p. So the
  cast of the column back to a vector returns the vector, and the cast of the vector to a column is the broadcast.
  Generic in the length and the element type; the axis map is passed with its value.
-/
import proofs.«145681_j16862041604212_2_alg».proof.Proof.LibColumns
import proofs.«145681_j16862041604212_2_alg».proof.Proof.LibHostBroadcast

namespace Cert.ColumnVector

open Idealize.ShloMosaic Idealize.ShloMosaic.ValueIdx

variable {α : Type}

/-- A vector placed as a column and cast back to a vector is the vector. -/
theorem shapeCast_column {a : ℕ} (dims : Fin (⟨1, ![a]⟩ : Shape).rank → Fin (⟨2, ![a, 1]⟩ : Shape).rank)
    (hd : dims ⟨0, Nat.one_pos⟩ = ⟨0, Nat.succ_pos 1⟩) (hB : (⟨1, ![a]⟩ : Shape).BroadcastsInDim ⟨2, ![a, 1]⟩ dims)
    (hc : (⟨2, ![a, 1]⟩ : Shape).ShapeCasts ⟨1, ![a]⟩) (y : (⟨1, ![a]⟩ : Shape).Idx → α) :
    shapeCast ⟨1, ![a]⟩ (broadcastInDim ⟨2, ![a, 1]⟩ dims hB y) hc = y := by
  funext i
  obtain ⟨p, rfl⟩ : ∃ p : Fin a, i = ix1 p := ⟨i 0, eq_ix1 i⟩
  rw [shapeCast_apply _ hc (ix1 p) (ix2 p (0 : Fin 1)) (by
    rw [Shape.rowMajor_val_two, Shape.rowMajor_val_one]
    show p.val * 1 + 0 = p.val
    rw [Nat.mul_one, Nat.add_zero])]
  exact Cert.LibHostBroadcast.bcast_a_a1_apply dims hd hB y p 0

/-- A vector cast to a column is the vector placed along axis 0 of the column. -/
theorem shapeCast_eq_column {a : ℕ} (dims : Fin (⟨1, ![a]⟩ : Shape).rank → Fin (⟨2, ![a, 1]⟩ : Shape).rank)
    (hd : dims ⟨0, Nat.one_pos⟩ = ⟨0, Nat.succ_pos 1⟩) (hB : (⟨1, ![a]⟩ : Shape).BroadcastsInDim ⟨2, ![a, 1]⟩ dims)
    (hc : (⟨1, ![a]⟩ : Shape).ShapeCasts ⟨2, ![a, 1]⟩) (y : (⟨1, ![a]⟩ : Shape).Idx → α) :
    shapeCast ⟨2, ![a, 1]⟩ y hc = broadcastInDim ⟨2, ![a, 1]⟩ dims hB y := by
  funext i
  obtain ⟨p, u, rfl⟩ : ∃ (p : Fin a) (u : Fin 1), i = ix2 p u := ⟨i 0, i 1, eq_ix2 i⟩
  rw [Cert.Columns.shapeCast_a_a1_apply, Cert.LibHostBroadcast.bcast_a_a1_apply dims hd hB]

end Cert.ColumnVector
-- ==== Proof.Bridge.lean ====
/-
  The kernel program and the reference compute one function.

  Both results of the two programs are compared array by array. The reference's first result is, read off its
  operations, the finishing stage (H · Wt + spread b) ⊙ spread nrm + X of its own intermediate arrays; the kernel
  program's is the same stage of the arrays its host operations leave (FinishArray). The five arrays agree:
    • H, Wt and X are computed by the same operations of the same arguments;
    • the bias row is the bias reshaped to [1, 64] in one program and placed along axis 1 of a [1, 64] row in the
      other: both rows hold b(q) at (0, q);
    • the normalisation column is 1/√max(deg, 1) of the integer in-degree converted to a float in one program and
      max(1, deg)^(-1/2) of the float in-degree in the other. Either in-degree is the number of edges whose
      destination is the node (fewer than 2^31, so the 32-bit count is exact), and at a positive real the reciprocal
      square root is the power -1/2.
-/
import proofs.«145681_j16862041604212_2_alg».proof.Proof.FinishArray
import proofs.«145681_j16862041604212_2_alg».proof.Proof.HostValues
import proofs.«145681_j16862041604212_2_alg».proof.Proof.LibScatterCount
import proofs.«145681_j16862041604212_2_alg».proof.Proof.LibRsqrtPow
import proofs.«145681_j16862041604212_2_alg».proof.Proof.LibRows
import proofs.«145681_j16862041604212_2_alg».proof.Proof.LibColumnVector

noncomputable section

open Idealize.ShloMosaic Idealize.ShloMosaic.TcCoe Idealize.SL.Sem

namespace Cert.Finish

open Idealize.ShloMosaic.ValueIdx Cert.KernelIdeal Cert.KernelIdeal.Gen

/-- The reference's product has plain dimension numbers. -/
theorem dref_plain : Cert.ReferenceIdeal.dot_S100000x64_S64x64_S100000x64_1_0_0_1_n_n = DotDims.plain 100000 64 64 := rfl

/-- The reference's first result is the finishing stage of its own intermediate arrays. -/
theorem ref_rst (x0 : (⟨S100000x64, .f32⟩ : BufTy).Contents (Elt Ideal)) (x1 : (⟨S1600000x64, .f32⟩ : BufTy).Contents (Elt Ideal))
    (x2 : (⟨S64x64, .f32⟩ : BufTy).Contents (Elt Ideal)) (x3 : (⟨S64, .f32⟩ : BufTy).Contents (Elt Ideal))
    (x4 x5 : (⟨S1600000, .i32⟩ : BufTy).Contents (Elt Ideal)) :
    Cert.ReferenceIdeal.Read.val_main_v41 (F := Ideal) x0 x1 x2 x3 x4 x5
      = finishAll Cert.ReferenceIdeal.dot_S100000x64_S64x64_S100000x64_1_0_0_1_n_n
          ![0, 1] Cert.ReferenceIdeal.Gen.bcast_S1x64_S100000x64_0_1 ![0, 1] Cert.ReferenceIdeal.Gen.bcast_S100000x1_S100000x64_0_1
          (Cert.ReferenceIdeal.Read.val_main_v10 (F := Ideal) x0 x1 x4 x5) (Cert.ReferenceIdeal.Read.val_main_v33 (F := Ideal) x2)
          (Cert.ReferenceIdeal.Read.val_main_v35 (F := Ideal) x3) (Cert.ReferenceIdeal.Read.val_main_v38 (F := Ideal) x5) x0 := rfl

/-- The bias reshaped to a row is the bias placed along axis 1 of the row. -/
theorem bias_row (b : S64.Idx → EReal) :
    shapeCast S1x64 b shapeCasts_S64_S1x64 = Cert.ReferenceIdeal.Read.val_main_v35 (F := Ideal) b :=
  Cert.LibRows.reshape_row_eq_bcast b shapeCasts_S64_S1x64 ![1] rfl Cert.ReferenceIdeal.Gen.bcast_S64_S1x64_1

theorem numel_edges : S1600000.numel < 2 ^ 31 := by decide

/-- The normalisation column: 1/√max(deg, 1) of the converted integer in-degree, as a column, is the column of
    max(1, deg)^(-1/2) of the float in-degree. -/
theorem norm_col (dst : (⟨S1600000, .i32⟩ : BufTy).Contents (Elt Ideal)) :
    normCol (shapeCast S100000x1 (sitofp (F := Ideal) .f32 (degInt dst) : S100000.Idx → EReal) shapeCasts_S100000_S100000x1)
      = Cert.ReferenceIdeal.Read.val_main_v38 (F := Ideal) dst := by
  funext i
  obtain ⟨p, u, rfl⟩ : ∃ (p : Fin 100000) (u : Fin 1), i = ix2 p u := ⟨i 0, i 1, eq_ix2 i⟩
  obtain ⟨hk, hr⟩ := Cert.LibScatterCount.count_forms numel_edges
    Cert.ReferenceIdeal.scatter_S100000_S1600000x1_S1600000_n_0_0_1 (Cert.ReferenceIdeal.Read.val_main_v28 (F := Ideal) dst)
    (broadcastInDim S100000 ![] Cert.ReferenceIdeal.Gen.bcast_S_S100000 (constantI S_ 32 0#32))
    (broadcastInDim S1600000 ![] Cert.ReferenceIdeal.Gen.bcast_S_S1600000 (constantI S_ 32 1#32))
    (fun _ => rfl) (fun _ => rfl)
    (Cert.ReferenceIdeal.Read.val_main_v27 (F := Ideal)) (Cert.ReferenceIdeal.Read.val_main_v26 (F := Ideal))
    (fun _ => Ideal.ofBits_zero_f32) (fun _ => Cert.LibRsqrtPow.ofBits_one) (ix1 p)
  have hl : normCol (shapeCast S100000x1 (sitofp (F := Ideal) .f32 (degInt dst) : S100000.Idx → EReal) shapeCasts_S100000_S100000x1) (ix2 p u)
      = Ideal.rsqrt (max (((Cert.LibScatterCount.landing Cert.ReferenceIdeal.scatter_S100000_S1600000x1_S1600000_n_0_0_1
          (Cert.ReferenceIdeal.Read.val_main_v28 (F := Ideal) dst) (ix1 p) : ℕ) : ℝ) : EReal) 1) := by
    show Ideal.rsqrt (max (shapeCast S100000x1 (sitofp (F := Ideal) .f32 (degInt dst) : S100000.Idx → EReal) shapeCasts_S100000_S100000x1 (ix2 p u))
      (Ideal.ofBits .f32 0x3F800000#32)) = _
    rw [Cert.Columns.shapeCast_a_a1_apply, Cert.LibRsqrtPow.ofBits_one]
    exact congrArg (fun d : EReal => Ideal.rsqrt (max d 1)) hk
  have hrr : Cert.ReferenceIdeal.Read.val_main_v38 (F := Ideal) dst (ix2 p u)
      = Ideal.pow (max 1 (((Cert.LibScatterCount.landing Cert.ReferenceIdeal.scatter_S100000_S1600000x1_S1600000_n_0_0_1
          (Cert.ReferenceIdeal.Read.val_main_v28 (F := Ideal) dst) (ix1 p) : ℕ) : ℝ) : EReal)) ((-(1 / 2) : ℝ) : EReal) := by
    unfold Cert.ReferenceIdeal.Read.val_main_v38
    rw [Cert.LibHostBroadcast.bcast_a_a1_apply (a := 100000) ![0] rfl Cert.ReferenceIdeal.Gen.bcast_S100000_S100000x1_0
      (Cert.ReferenceIdeal.Read.val_main_v32 (F := Ideal) dst) p u]
    rw [Cert.ReferenceIdeal.Read.val_main_v32_apply, Cert.ReferenceIdeal.Read.val_main_v30_apply, Cert.ReferenceIdeal.Read.val_main_call0_v1_apply, Cert.ReferenceIdeal.Read.val_main_call0_v0_apply,
      Cert.ReferenceIdeal.Read.val_main_cst_7_apply, Cert.ReferenceIdeal.Read.val_main_v31_apply, Cert.ReferenceIdeal.Read.val_main_cst_8_apply]
    unfold Cert.ReferenceIdeal.Read.val_main_v29
    rw [hr]
    simp only [Ideal.hostPowf_def, Ideal.maximumf_def, Ideal.ofBits_def, Cert.LibRsqrtPow.ofBits_one,
      Cert.LibRsqrtPow.ofBits_neg_half]
  rw [hl, hrr]
  exact Cert.LibRsqrtPow.rsqrt_max_eq_pow_max _

/-- The finishing stage respects equality of its five arrays. -/
theorem finishAll_congr (D' : DotDims ⟨2, ![100000, 64]⟩ ⟨2, ![64, 64]⟩ ⟨2, ![100000, 64]⟩)
    (dB : Fin (⟨2, ![1, 64]⟩ : Shape).rank → Fin (⟨2, ![100000, 64]⟩ : Shape).rank)
    (hB : (⟨2, ![1, 64]⟩ : Shape).BroadcastsInDim ⟨2, ![100000, 64]⟩ dB)
    (dC : Fin (⟨2, ![100000, 1]⟩ : Shape).rank → Fin (⟨2, ![100000, 64]⟩ : Shape).rank)
    (hC : (⟨2, ![100000, 1]⟩ : Shape).BroadcastsInDim ⟨2, ![100000, 64]⟩ dC)
    {H H' : FVec Ideal ⟨2, ![100000, 64]⟩ .f32} {W W' : FVec Ideal ⟨2, ![64, 64]⟩ .f32} {b b' : FVec Ideal ⟨2, ![1, 64]⟩ .f32}
    {n n' : FVec Ideal ⟨2, ![100000, 1]⟩ .f32} {X X' : FVec Ideal ⟨2, ![100000, 64]⟩ .f32}
    (hH : H = H') (hW : W = W') (hb : b = b') (hn : n = n') (hX : X = X') :
    finishAll D' dB hB dC hC H W b n X = finishAll D' dB hB dC hC H' W' b' n' X' := by
  subst hH hW hb hn hX; rfl

variable (m : (ℓ : Loc nD τ sig) → Buf (Elt Ideal) ℓ)

/-- THE FIRST RESULT: the finishing stage of the arrays the kernel finds is the reference's first result at the same
    arguments. -/
theorem rst_eq (c : Dev nD) :
    result m Cert.ReferenceIdeal.dot_S100000x64_S64x64_S100000x64_1_0_0_1_n_n
        ![0, 1] Cert.ReferenceIdeal.Gen.bcast_S1x64_S100000x64_0_1 ![0, 1] Cert.ReferenceIdeal.Gen.bcast_S100000x1_S100000x64_0_1 c
      = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [ref_rst]
  exact finishAll_congr _ _ _ _ _ (found_H m c) (found_Wt m c) ((found_b m c).trans (bias_row _))
    ((congrArg normCol (found_deg m c)).trans (norm_col _)) (V_main_arg0 m c)

end Cert.Finish

end
-- ==== Proof.lean ====
/-
  A graph convolution with an edge update, 100000 nodes, 1600000 edges, 64 features:

      msg   = x[src] + edge_fea                       H = segment_sum(msg, dst)          e_new = H[src] + H[dst]
      rst   = (H · Wᵀ + b) ⊙ deg⁻¹ᐟ² + x              deg = max(in-degree, 1), spread along each node's row

  The kernel program computes msg, H, e_new and the in-degree on the host and the last line in a kernel that walks the
  nodes 2000 rows at a time; the reference computes everything on the host. They differ in three spellings, none of
  which changes a value on the extended reals:
    • the kernel narrows H and Wᵀ to bf16 before the product (a change of format is the identity) and multiplies a
      block of rows at a time (each entry of the product is the sum over k of row entries times column entries, in
      the block as in the whole);
    • the in-degree is counted in 32-bit integers and then converted, against a float count: both are the number of
      edges arriving at the node, which is far below 2^31;
    • 1/√max(deg, 1) against max(1, deg)^(-1/2): one number at every real deg.
  No law used needs finite inputs, so the precondition is never opened. The frames of the two kernel programs are the
  generated ones; the reference's frame is its generated run with the results dropped; the idealization rewrote
  nothing, so there is nothing to preserve.
-/
import proofs.«145681_j16862041604212_2_alg».proof.Defs
import proofs.«145681_j16862041604212_2_alg».proof.Proof.Gen.Kernel
import proofs.«145681_j16862041604212_2_alg».proof.Proof.Gen.Kernel.Frame
import proofs.«145681_j16862041604212_2_alg».proof.Proof.Gen.KernelIdeal
import proofs.«145681_j16862041604212_2_alg».proof.Proof.Gen.KernelIdeal.Frame
import proofs.«145681_j16862041604212_2_alg».proof.Proof.Gen.KernelIdeal.Value
import proofs.«145681_j16862041604212_2_alg».proof.Proof.Gen.ReferenceIdeal
import proofs.«145681_j16862041604212_2_alg».proof.Proof.Gen.ReferenceIdeal.Run
import proofs.«145681_j16862041604212_2_alg».proof.Proof.Gen.ReferenceIdeal.Read
import proofs.«145681_j16862041604212_2_alg».proof.Proof.Gen.Pre_finite_inputs
import proofs.«145681_j16862041604212_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Run from memories that agree on the six arguments, the kernel program ends with its first result at the finishing
    stage of the arrays its host operations leave and its second at the edge update those operations compute; the
    reference ends at its composed terms of the same arguments, which are those two arrays. -/
theorem algebraic : Cert.algebraic_KernelIdeal_ReferenceIdeal := by
  intro m ρ m' ρ' _ hagree
  refine ⟨_, _, Cert.Finish.run m ρ Cert.ReferenceIdeal.dot_S100000x64_S64x64_S100000x64_1_0_0_1_n_n Cert.Finish.dref_plain
    ![0, 1] rfl Cert.ReferenceIdeal.Gen.bcast_S1x64_S100000x64_0_1 ![0, 1] rfl Cert.ReferenceIdeal.Gen.bcast_S100000x1_S100000x64_0_1, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v41_eq, a0, a1, a2, a3, a4, a5]
    exact (Cert.Finish.rst_eq m c).symm
  · rw [Cert.ReferenceIdeal.Read.val_main_v25_eq, a0, a1, a4, a5]
    exact (Cert.Finish.found_enew m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
